-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S10 .f32) (main_v48 : IVec S_ 1) (main_v49 : FVec F S256x10 .f32) (main_v50 : FVec F S256x10 .f32) : IVec S_ 1 :=
  let main_v51 : IVec S256x10 1 := cmpf .olt main_v49 main_v50
  let main_c_19 : IVec S_ 1 := constantI S_ 1 1#1
  let main_v52 : IVec S_ 1 := (fun x v => Host.reduce IntOp.andi x v reducesTo_S256x10_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg9 : FVec F S256x256 .f32) (main_arg10 : FVec F S256x256 .f32) (main_arg11 : FVec F S256 .f32) (main_arg12 : FVec F S256x10 .f32) (main_arg13 : FVec F S10 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x10 .f32 := Host.absf main_arg12
  let main_cst_18 : FVec F S_ .f32 := constant S_ .f32 0x7F800000#32
  let main_v50 : FVec F S256x10 .f32 := broadcastInDim S256x10 ![] bcast_S_S256x10 main_cst_18
  fn_part3 (F := F) main_arg13 main_v48 main_v49 main_v50

def fn_part1 {F : FTy → Type} [FloatOps F] (main_arg6 : FVec F S256x256 .f32) (main_arg7 : FVec F S256x256 .f32) (main_arg8 : FVec F S256 .f32) (main_arg9 : FVec F S256x256 .f32) (main_arg10 : FVec F S256x256 .f32) (main_arg11 : FVec F S256 .f32) (main_arg12 : FVec F S256x10 .f32) (main_arg13 : FVec F S10 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S2x800000 32) (main_arg2 : IVec S50000 32) (main_arg3 : FVec F S128x256 .f32) (main_arg4 : FVec F S128x256 .f32) (main_arg5 : FVec F S256 .f32) (main_arg6 : FVec F S256x256 .f32) (main_arg7 : FVec F S256x256 .f32) (main_arg8 : FVec F S256 .f32) (main_arg9 : FVec F S256x256 .f32) (main_arg10 : FVec F S256x256 .f32) (main_arg11 : FVec F S256 .f32) (main_arg12 : FVec F S256x10 .f32) (main_arg13 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S5000x128 : Shape := ⟨2, ![5000, 128]⟩
abbrev S5000x256 : Shape := ⟨2, ![5000, 256]⟩
abbrev S1x256 : Shape := ⟨2, ![1, 256]⟩
abbrev S800000x256 : Shape := ⟨2, ![800000, 256]⟩
abbrev S50000x1 : Shape := ⟨2, ![50000, 1]⟩
abbrev S128 : Shape := ⟨1, ![128]⟩
abbrev S128x1 : Shape := ⟨2, ![128, 1]⟩
abbrev S128x10 : Shape := ⟨2, ![128, 10]⟩
abbrev S1x10 : Shape := ⟨2, ![1, 10]⟩

abbrev nBuf : Space → Nat
  | .hbm => 80
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S256x10, .f32⟩
  | .hbm, ⟨13, _⟩ => ⟨S10, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S50000x256, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x256, .f32⟩
  | .hbm, ⟨41, _⟩ => ⟨S_, .f32⟩
  | .hbm, ⟨42, _⟩ => ⟨S50000x256, .f32⟩
  | .hbm, ⟨43, _⟩ => ⟨S800000x1, .i32⟩
  | .hbm, ⟨44, _⟩ => ⟨S50000x256, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S50000x256, .f32⟩
  | .hbm, ⟨60, _⟩ => ⟨S_, .f32⟩
  | .hbm, ⟨61, _⟩ => ⟨S128x256, .f32⟩
  | .hbm, ⟨62, _⟩ => ⟨S50000x1, .i32⟩
  | .hbm, ⟨63, _⟩ => ⟨S128x256, .f32⟩
  | .hbm, ⟨64, _⟩ => ⟨S_, .f32⟩
  | .hbm, ⟨65, _⟩ => ⟨S50000, .f32⟩
  | .hbm, ⟨66, _⟩ => ⟨S_, .f32⟩
  | .hbm, ⟨67, _⟩ => ⟨S128, .f32⟩
  | .hbm, ⟨68, _⟩ => ⟨S50000x1, .i32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128x1, .f32⟩
  | .hbm, ⟨74, _⟩ => ⟨S128x256, .f32⟩
  | .hbm, ⟨75, _⟩ => ⟨S128x256, .f32⟩
  | .hbm, ⟨76, _⟩ => ⟨S128x10, .f32⟩
  | .hbm, ⟨77, _⟩ => ⟨S1x10, .f32⟩
  | .hbm, ⟨78, _⟩ => ⟨S128x10, .f32⟩
  | .hbm, ⟨79, _⟩ => ⟨S128x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .f32⟩
  | .local _ .vmem, ⟨5, _⟩ => ⟨S128x256, .f32⟩
  | .local _ .vmem, ⟨6, _⟩ => ⟨S256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S256x256, .f32⟩
  | .local _ .vmem, ⟨14, _⟩ => ⟨S256x256, .f32⟩
  | .local _ .vmem, ⟨15, _⟩ => ⟨S256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S256x256, .f32⟩
  | .local _ .vmem, ⟨23, _⟩ => ⟨S256x256, .f32⟩
  | .local _ .vmem, ⟨24, _⟩ => ⟨S256, .f32⟩
  | .local _ .vmem, ⟨25, _⟩ => ⟨S5000x256, .f32⟩
  | .local _ .vmem, ⟨26, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  bcast_S_S128x256 : S_.BroadcastsInDim S128x256 (![] : Fin 0 → Fin S128x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  scatter_S128x256_S50000x1_S50000x256_1_0_0_1_wf : ScatterDims.WF S128x256 S50000x1 S50000x256 [1] [0] [0] 1
  scatter_S128_S50000x1_S50000_n_0_0_1_wf : ScatterDims.WF S128 S50000x1 S50000 [] [0] [0] 1
  dot_S128x256_S256x10_S128x10_1_0_0_1_n_n_wf : DotDims.WF S128x256 S256x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S50000x256.size a
  hwx1_5 : ∀ i : grid1.Coords, EltTy.bits .f32 = 32 ∨ (Rect.block (s := S50000x256) S5000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S50000x256.size a
  hwx2_1 : ∀ i : grid2.Coords, EltTy.bits .f32 = 32 ∨ (Rect.block (s := S50000x256) S5000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x256.size a ≤ S50000x256.size a
  hwx2_5 : ∀ i : grid2.Coords, EltTy.bits .f32 = 32 ∨ (Rect.block (s := S50000x256) S5000x256.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x256_S256x10_S128x10_1_0_0_1_n_n : DotDims S128x256 S256x10 S128x10 where
  lhsContracting := [1]
  rhsContracting := [0]
  lhsNonContracting := [0]
  rhsNonContracting := [1]
  lhsBatch := []
  rhsBatch := []
  wf := dot_S128x256_S256x10_S128x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v14) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v25) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S5000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S50000x1 : Shape := ⟨2, ![50000, 1]⟩
abbrev S128 : Shape := ⟨1, ![128]⟩
abbrev S128x1 : Shape := ⟨2, ![128, 1]⟩
abbrev S128x10 : Shape := ⟨2, ![128, 10]⟩
abbrev S1x10 : Shape := ⟨2, ![1, 10]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S256x10, .f32⟩
  | .hbm, ⟨13, _⟩ => ⟨S10, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S50000x256, .f32⟩
  | .hbm, ⟨32, _⟩ => ⟨S50000x256, .f32⟩
  | .hbm, ⟨33, _⟩ => ⟨S50000x256, .f32⟩
  | .hbm, ⟨34, _⟩ => ⟨S1x256, .f32⟩
  | .hbm, ⟨35, _⟩ => ⟨S50000x256, .f32⟩
  | .hbm, ⟨36, _⟩ => ⟨S50000x256, .f32⟩
  | .hbm, ⟨37, _⟩ => ⟨S_, .f32⟩
  | .hbm, ⟨38, _⟩ => ⟨S50000x256, .f32⟩
  | .hbm, ⟨39, _⟩ => ⟨S50000x256, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x256, .f32⟩
  | .hbm, ⟨49, _⟩ => ⟨S_, .f32⟩
  | .hbm, ⟨50, _⟩ => ⟨S50000x256, .f32⟩
  | .hbm, ⟨51, _⟩ => ⟨S800000x1, .i32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S50000x256, .f32⟩
  | .hbm, ⟨56, _⟩ => ⟨S1x256, .f32⟩
  | .hbm, ⟨57, _⟩ => ⟨S50000x256, .f32⟩
  | .hbm, ⟨58, _⟩ => ⟨S50000x256, .f32⟩
  | .hbm, ⟨59, _⟩ => ⟨S_, .f32⟩
  | .hbm, ⟨60, _⟩ => ⟨S50000x256, .f32⟩
  | .hbm, ⟨61, _⟩ => ⟨S50000x256, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x256, .f32⟩
  | .hbm, ⟨71, _⟩ => ⟨S_, .f32⟩
  | .hbm, ⟨72, _⟩ => ⟨S50000x256, .f32⟩
  | .hbm, ⟨73, _⟩ => ⟨S800000x1, .i32⟩
  | .hbm, ⟨74, _⟩ => ⟨S50000x256, .f32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S1x256, .f32⟩
  | .hbm, ⟨79, _⟩ => ⟨S50000x256, .f32⟩
  | .hbm, ⟨80, _⟩ => ⟨S50000x256, .f32⟩
  | .hbm, ⟨81, _⟩ => ⟨S_, .f32⟩
  | .hbm, ⟨82, _⟩ => ⟨S128x256, .f32⟩
  | .hbm, ⟨83, _⟩ => ⟨S50000x1, .i32⟩
  | .hbm, ⟨84, _⟩ => ⟨S128x256, .f32⟩
  | .hbm, ⟨85, _⟩ => ⟨S_, .f32⟩
  | .hbm, ⟨86, _⟩ => ⟨S50000, .f32⟩
  | .hbm, ⟨87, _⟩ => ⟨S_, .f32⟩
  | .hbm, ⟨88, _⟩ => ⟨S128, .f32⟩
  | .hbm, ⟨89, _⟩ => ⟨S50000x1, .i32⟩
  | .hbm, ⟨90, _⟩ => ⟨S128, .f32⟩
  | .hbm, ⟨91, _⟩ => ⟨S_, .f32⟩
  | .hbm, ⟨92, _⟩ => ⟨S128, .f32⟩
  | .hbm, ⟨93, _⟩ => ⟨S128, .f32⟩
  | .hbm, ⟨94, _⟩ => ⟨S128x1, .f32⟩
  | .hbm, ⟨95, _⟩ => ⟨S128x256, .f32⟩
  | .hbm, ⟨96, _⟩ => ⟨S128x256, .f32⟩
  | .hbm, ⟨97, _⟩ => ⟨S128x10, .f32⟩
  | .hbm, ⟨98, _⟩ => ⟨S1x10, .f32⟩
  | .hbm, ⟨99, _⟩ => ⟨S128x10, .f32⟩
  | .hbm, ⟨100, _⟩ => ⟨S128x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_cst : Ref sig .tc := ⟨.hbm, 37, rfl⟩
abbrev main_call0_v0 : Ref sig .tc := ⟨.hbm, 38, rfl⟩
abbrev main_v20 : Ref sig .tc := ⟨.hbm, 39, rfl⟩
abbrev main_c_1 : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call1_cst : Ref sig .tc := ⟨.hbm, 59, rfl⟩
abbrev main_call1_v0 : Ref sig .tc := ⟨.hbm, 60, rfl⟩
abbrev main_v37 : Ref sig .tc := ⟨.hbm, 61, rfl⟩
abbrev main_c_4 : Ref sig .tc := ⟨.hbm, 62, rfl⟩
abbrev main_v38 : Ref sig .tc := ⟨.hbm, 63, rfl⟩
abbrev main_v39 : Ref sig .tc := ⟨.hbm, 64, rfl⟩
abbrev main_c_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S128x256 : S_.BroadcastsInDim S128x256 (![] : Fin 0 → Fin S128x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S128x256_S50000x1_S50000x256_1_0_0_1_wf : ScatterDims.WF S128x256 S50000x1 S50000x256 [1] [0] [0] 1
  scatter_S128_S50000x1_S50000_n_0_0_1_wf : ScatterDims.WF S128 S50000x1 S50000 [] [0] [0] 1
  dot_S128x256_S256x10_S128x10_1_0_0_1_n_n_wf : DotDims.WF S128x256 S256x10 S128x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x256_S256x10_S128x10_1_0_0_1_n_n : DotDims S128x256 S256x10 S128x10 where
  lhsContracting := [1]
  rhsContracting := [0]
  lhsNonContracting := [0]
  rhsNonContracting := [1]
  lhsBatch := []
  rhsBatch := []
  wf := dot_S128x256_S256x10_S128x10_1_0_0_1_n_n_wf

class Facts : Prop extends Facts₀ where

variable [Facts]
-- ==== Proof.KernelRun.lean ====
/-
  The idealized kernel's run with its final buffer contents named.

  @main is seven segments: four stretches of host operations around three pallas_call regions. Every weakly fair
  execution from a memory `m` with zero counters terminates, nothing faulting, and leaves every unscoped buffer of
  each TensorCore at the contents `W7 m ρ c` — the fold through the segments that the frame module defines: a host
  stretch applies its operations (`StableHlo.after`), a region replaces its arrays by what its write-backs leave. The
  frame claim keeps only the argument buffers of this; the value claim also needs the result buffer, so the same run
  is stated here with the whole valuation in its post, and the result and the arguments are read off it.
-/
import proofs.«158405_j1932735283948_1_alg».proof.Proof.FrameKI

set_option maxRecDepth 16384

noncomputable section

namespace Cert.KernelIdeal.RunAll

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The same run with the result buffer at `W7`'s contents and the fourteen argument buffers as launched. -/
theorem run_result : θ_run defs (onTc (τ := τ) (main (F := F))) ⟨m, fun _ => 0, ρ⟩ (fun r => ∀ c : Dev nD,
      r.2.mem ((c.tc : Thread nD τ).loc main_v52) = W7 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c _ (mem_uc main_v52 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c)⟩)
    (run_all m ρ)

end Cert.KernelIdeal.RunAll

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«158405_j1932735283948_1_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostAffine.lean ====
/-
  Two host-side shapes read at an entry, at the ideal instance.

  (1) A plain `dot_general` of an M×K array with a K×N matrix, plus a bias VECTOR of length N broadcast first to one
  row and then over the M rows, has at row `r` and column `j` the value `(∑ k, x (r, k) · W (k, j)) + b j`.
  (2) The maximum of an array with the broadcast of the scalar constant whose word is all zeros is, entry by entry, the
  maximum with the real number zero (the positive part).
-/
import proofs.«158405_j1932735283948_1_alg».proof.Proof.LibDotGeneralNN
import Idealize.ShloMosaic.Lib.Pipeline.Value

noncomputable section

open scoped BigOperators

namespace Cert.LibHostAffine

open Idealize.ShloMosaic Idealize.ShloMosaic.ValueIdx

variable {M K N : Nat} {φ₁ φ₂ : FTy} {α : Type}

/-- A vector broadcast to one row and then over `M` rows reads, at `(r, j)`, its entry `j`. -/
theorem bias_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 b) (ix2 r j)
      = b (ix1 j) := by
  rw [broadcastInDim_apply (![0, 1] : Fin 2 → Fin 2) h2 _ (ix2 r j) (ix2 (0 : Fin 1) j) (fun a => by
    match a with
    | ⟨0, _⟩ => rfl
    | ⟨1, _⟩ =>
      show j.val = if N = 1 then 0 else j.val
      split
      · have := j.isLt; omega
      · rfl)]
  exact broadcastInDim_apply (![1] : Fin 1 → Fin 2) h1 b (ix2 (0 : Fin 1) j) (ix1 j) (fun a => by
    match a with
    | ⟨0, _⟩ =>
      show j.val = if N = 1 then 0 else j.val
      split
      · have := j.isLt; omega
      · rfl)

/-- The host product plus the broadcast bias vector at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d prec x W)
        (broadcastInDim ⟨2, ![M, N]⟩ (![0, 1] : Fin 2 → Fin 2) h2 (broadcastInDim ⟨2, ![1, N]⟩ (![1] : Fin 1 → Fin 2) h1 b)) (ix2 r j)
      = (∑ k : Fin K, x (ix2 r k) * W (ix2 k j)) + b (ix1 j) := by
  rw [addf_apply, bias_apply b h1 h2 r j]
  simp only [Host.dotGeneral]
  rw [Cert.LibDotGeneralNN.dotGeneral_apply d hlc hrc hln hrn hlb hrb]

/-- The maximum with a broadcast zero constant is the positive part. -/
theorem relu_apply {s : Shape} (x : FVec Ideal s .f32) (h : (⟨0, ![]⟩ : Shape).BroadcastsInDim s (![] : Fin 0 → Fin s.rank))
    (i : s.Idx) :
    maximumf x (broadcastInDim s (![] : Fin 0 → Fin s.rank) h (constant (F := Ideal) ⟨0, ![]⟩ .f32 0x00000000#32)) i
      = max (x i) 0 := by
  show max (x i) (Ideal.ofBits .f32 0x00000000#32) = max (x i) 0
  rw [Ideal.ofBits_zero_f32]

end Cert.LibHostAffine

end
-- ==== Proof.LibGraphConv.lean ====
/-
  One graph-convolution layer read at an entry, at the ideal instance.

  A layer takes node features x (M×K), summed neighbour features a (M×K), two weight matrices wr and wl (K×N) and a
  bias vector b (length N) to the M×N array whose entry (r, j) is

      (∑ k, x (r, k) · wr (k, j)  +  ∑ k, a (r, k) · wl (k, j))  +  b j,

  optionally followed by the positive part max(·, 0). Two spellings of it are read at an entry, for any extents and
  any plain dimension-number record (left operand contracted on its second axis, right on its first, no batch axis):

  * the one a tile computes: two matrix products into zero accumulators, added; a bias row made by reshaping the
    vector to one row and repeating it over the rows, added; and a maximum with a splat of the zero word;
  * the one the host computes: two dot_generals, added; the bias broadcast first to one row and then over the rows,
    added; and a maximum with the broadcast of the scalar zero constant.

  Both are the same two sums in the same grouping, so they are equal on all extended reals, infinities included:
  no algebraic law is used beyond reading each operation at an index.
-/
import proofs.«158405_j1932735283948_1_alg».proof.Proof.LibMatmulNN
import proofs.«158405_j1932735283948_1_alg».proof.Proof.LibHostAffine
import Idealize.ShloMosaic.Lib.ValueLayout

noncomputable section

open scoped BigOperators

namespace Cert.LibGraphConv

open Idealize.ShloMosaic Idealize.ShloMosaic.ValueIdx

variable {M K N : Nat}

/-- The layer's entry at row `r` and column `j`, before the positive part. -/
def entry (x a : (⟨2, ![M, K]⟩ : Shape).Idx → EReal) (wr wl : (⟨2, ![K, N]⟩ : Shape).Idx → EReal)
    (b : (⟨1, ![N]⟩ : Shape).Idx → EReal) (r : Fin M) (j : Fin N) : EReal :=
  ((∑ k : Fin K, x (ix2 r k) * wr (ix2 k j)) + ∑ k : Fin K, a (ix2 r k) * wl (ix2 k j)) + b (ix1 j)

/-- The layer as one whole array. -/
def layer (x a : (⟨2, ![M, K]⟩ : Shape).Idx → EReal) (wr wl : (⟨2, ![K, N]⟩ : Shape).Idx → EReal)
    (b : (⟨1, ![N]⟩ : Shape).Idx → EReal) : (⟨2, ![M, N]⟩ : Shape).Idx → EReal :=
  fun i => entry x a wr wl b (i 0) (i 1)

/-- The layer followed by the positive part, as one whole array. -/
def layerPos (x a : (⟨2, ![M, K]⟩ : Shape).Idx → EReal) (wr wl : (⟨2, ![K, N]⟩ : Shape).Idx → EReal)
    (b : (⟨1, ![N]⟩ : Shape).Idx → EReal) : (⟨2, ![M, N]⟩ : Shape).Idx → EReal :=
  fun i => max (entry x a wr wl b (i 0) (i 1)) 0

theorem layer_ix2 (x a : (⟨2, ![M, K]⟩ : Shape).Idx → EReal) (wr wl : (⟨2, ![K, N]⟩ : Shape).Idx → EReal)
    (b : (⟨1, ![N]⟩ : Shape).Idx → EReal) (r : Fin M) (j : Fin N) :
    layer x a wr wl b (ix2 r j) = entry x a wr wl b r j := rfl

theorem layerPos_ix2 (x a : (⟨2, ![M, K]⟩ : Shape).Idx → EReal) (wr wl : (⟨2, ![K, N]⟩ : Shape).Idx → EReal)
    (b : (⟨1, ![N]⟩ : Shape).Idx → EReal) (r : Fin M) (j : Fin N) :
    layerPos x a wr wl b (ix2 r j) = max (entry x a wr wl b r j) 0 := rfl

section Tile
variable {φ₁ φ₂ φ₃ φ₄ : FTy}

/-- What a tile computes, read at `(r, j)`: the two products into zero accumulators plus the bias row. -/
theorem tile_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (a : FVec Ideal ⟨2, ![M, K]⟩ φ₂)
    (wr : FVec Ideal ⟨2, ![K, N]⟩ φ₃) (wl : FVec Ideal ⟨2, ![K, N]⟩ φ₄) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (r : Fin M) (j : Fin N) :
    addf (addf (matmul d prec x wr (constant (F := Ideal) ⟨2, ![M, N]⟩ .f32 0x00000000#32))
               (matmul d prec a wl (constant (F := Ideal) ⟨2, ![M, N]⟩ .f32 0x00000000#32)))
         (broadcastTo ⟨2, ![M, N]⟩ (shapeCast ⟨2, ![1, N]⟩ b hc) hb) (ix2 r j)
      = entry x a wr wl b r j := by
  rw [addf_apply, addf_apply,
    Cert.LibMatmulNN.matmul_zero_apply' d hlc hrc hln hrn hlb hrb prec x wr r j,
    Cert.LibMatmulNN.matmul_zero_apply' d hlc hrc hln hrn hlb hrb prec a wl r j,
    broadcastTo_1b_ab_apply _ hb r j, shapeCast_a_1a_apply b hc]
  rfl

/-- The same followed by the maximum with a splat of the zero word: the positive part. -/
theorem tile_pos_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (a : FVec Ideal ⟨2, ![M, K]⟩ φ₂)
    (wr : FVec Ideal ⟨2, ![K, N]⟩ φ₃) (wl : FVec Ideal ⟨2, ![K, N]⟩ φ₄) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (r : Fin M) (j : Fin N) :
    maximumf
        (addf (addf (matmul d prec x wr (constant (F := Ideal) ⟨2, ![M, N]⟩ .f32 0x00000000#32))
                    (matmul d prec a wl (constant (F := Ideal) ⟨2, ![M, N]⟩ .f32 0x00000000#32)))
              (broadcastTo ⟨2, ![M, N]⟩ (shapeCast ⟨2, ![1, N]⟩ b hc) hb))
        (broadcast ⟨2, ![M, N]⟩ (Scalar.ofBits (F := Ideal) .f32 0x00000000#32)) (ix2 r j)
      = max (entry x a wr wl b r j) 0 := by
  rw [maximumf_apply, broadcast_apply, tile_apply d hlc hrc hln hrn hlb hrb prec x a wr wl b hc hb r j]
  show max _ (Ideal.ofBits .f32 0x00000000#32) = max _ 0
  rw [Ideal.ofBits_zero_f32]

end Tile

section Host
variable {φ₁ φ₂ φ₃ φ₄ : FTy}

/-- What the host computes, read at `(r, j)`: the two dot_generals plus the bias broadcast over the rows. -/
theorem host_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (a : FVec Ideal ⟨2, ![M, K]⟩ φ₂)
    (wr : FVec Ideal ⟨2, ![K, N]⟩ φ₃) (wl : FVec Ideal ⟨2, ![K, N]⟩ φ₄) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (r : Fin M) (j : Fin N) :
    addf (addf (Host.dotGeneral d prec x wr) (Host.dotGeneral d prec a wl))
         (broadcastInDim ⟨2, ![M, N]⟩ (![0, 1] : Fin 2 → Fin 2) h2 (broadcastInDim ⟨2, ![1, N]⟩ (![1] : Fin 1 → Fin 2) h1 b)) (ix2 r j)
      = entry x a wr wl b r j := by
  rw [addf_apply, addf_apply, Cert.LibHostAffine.bias_apply b h1 h2 r j]
  simp only [Host.dotGeneral]
  rw [Cert.LibDotGeneralNN.dotGeneral_apply d hlc hrc hln hrn hlb hrb, Cert.LibDotGeneralNN.dotGeneral_apply d hlc hrc hln hrn hlb hrb]
  rfl

/-- The host's layer without the positive part, as a whole array. -/
theorem host_eq_layer (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (a : FVec Ideal ⟨2, ![M, K]⟩ φ₂)
    (wr : FVec Ideal ⟨2, ![K, N]⟩ φ₃) (wl : FVec Ideal ⟨2, ![K, N]⟩ φ₄) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf (addf (Host.dotGeneral d prec x wr) (Host.dotGeneral d prec a wl))
         (broadcastInDim ⟨2, ![M, N]⟩ (![0, 1] : Fin 2 → Fin 2) h2 (broadcastInDim ⟨2, ![1, N]⟩ (![1] : Fin 1 → Fin 2) h1 b))
      = layer x a wr wl b := by
  funext i
  obtain ⟨r, j, rfl⟩ : ∃ (r : Fin M) (j : Fin N), i = ix2 r j := ⟨i 0, i 1, eq_ix2 i⟩
  exact host_apply d hlc hrc hln hrn hlb hrb prec x a wr wl b h1 h2 r j

/-- The host's layer followed by the maximum with the broadcast zero constant, as a whole array. -/
theorem host_eq_layerPos (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (a : FVec Ideal ⟨2, ![M, K]⟩ φ₂)
    (wr : FVec Ideal ⟨2, ![K, N]⟩ φ₃) (wl : FVec Ideal ⟨2, ![K, N]⟩ φ₄) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf
        (addf (addf (Host.dotGeneral d prec x wr) (Host.dotGeneral d prec a wl))
              (broadcastInDim ⟨2, ![M, N]⟩ (![0, 1] : Fin 2 → Fin 2) h2 (broadcastInDim ⟨2, ![1, N]⟩ (![1] : Fin 1 → Fin 2) h1 b)))
        (broadcastInDim ⟨2, ![M, N]⟩ (![] : Fin 0 → Fin 2) h0 (constant (F := Ideal) ⟨0, ![]⟩ .f32 0x00000000#32))
      = layerPos x a wr wl b := by
  funext i
  rw [Cert.LibHostAffine.relu_apply _ h0 i]
  obtain ⟨r, j, rfl⟩ : ∃ (r : Fin M) (j : Fin N), i = ix2 r j := ⟨i 0, i 1, eq_ix2 i⟩
  rw [host_apply d hlc hrc hln hrn hlb hrb prec x a wr wl b h1 h2 r j]
  rfl

end Host

end Cert.LibGraphConv

end
-- ==== Proof.Layer0.lean ====
/-
  The first graph-convolution layer as one whole array.

  The layer's pallas_call runs over ten tiles of 5000 rows. Tile t loads rows 5000·t … 5000·t + 4999 of the node
  features and of the summed neighbour features (128 columns each), the two whole 128×256 weight matrices and the
  whole bias vector, and stores the 5000×256 block whose entry (p, q) is
      (∑ k, x (5000·t + p, k) · W_root (k, q)  +  ∑ k, agg (5000·t + p, k) · W_rel (k, q))  +  b q,
  followed by the positive part
  (the changes of float format in front of the products are the identity on extended reals). That is entry
  (5000·t + p, q) of ONE function of the whole arrays, `LibGraphConv.layerPos`; the ten row blocks tile the 50000 rows,
  so the array the region leaves is that function of the arrays the region finds — whatever those are (`V`).
-/
import proofs.«158405_j1932735283948_1_alg».proof.Proof.FrameKI
import proofs.«158405_j1932735283948_1_alg».proof.Proof.LibGraphConv
import Idealize.ShloMosaic.Lib.Pipeline.Value

set_option maxRecDepth 16384

noncomputable section

open scoped BigOperators

namespace Cert.KernelIdeal.Layer0

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- The tile's stored value at the entry (p, q), from the five loaded blocks. -/
theorem pay_apply (x0 x1 : Vec Ideal S5000x128 .f32) (x2 x3 : Vec Ideal S128x256 .f32) (x4 : Vec Ideal S256 .f32)
    (p : Fin 5000) (q : Fin 256) :
    k0_pay1 (F := Ideal) x0 x1 x2 x3 x4 (ix2 p q) = max (Cert.LibGraphConv.entry x0 x1 x2 x3 x4 p q) 0 := by
  unfold k0_pay1
  refine (Cert.LibGraphConv.tile_pos_apply dot_S5000x128_S128x256_S5000x256_1_0_0_1_n_n rfl rfl rfl rfl rfl rfl none _ _ _ _ x4 _ _ p q).trans ?_
  rw [shapeCast_self x1 _] <;> rfl

/-- A tile's entry is the whole array's: if the loaded blocks are rows o·5000 … of `X` and `A` and the whole of
    `Wr`, `Wl`, `B`, the stored value at `y` is the layer of the whole arrays at row o·5000 + y₀, column y₁. -/
theorem tile_eq (X A : S50000x128.Idx → EReal) (Wr Wl : S128x256.Idx → EReal) (B : S256.Idx → EReal)
    (x0 x1 : Vec Ideal S5000x128 .f32) (x2 x3 : Vec Ideal S128x256 .f32) (x4 : Vec Ideal S256 .f32)
    (o : Nat) (y : S5000x256.Idx) (i : S50000x256.Idx)
    (hi0 : (i 0).val = o * 5000 + (y 0).val) (hi1 : (i 1).val = (y 1).val)
    (h0 : ∀ (p : Fin 5000) (k : Fin 128) (r : Fin 50000), r.val = o * 5000 + p.val → x0 (ix2 p k) = X (ix2 r k))
    (h1 : ∀ (p : Fin 5000) (k : Fin 128) (r : Fin 50000), r.val = o * 5000 + p.val → x1 (ix2 p k) = A (ix2 r k))
    (h2 : ∀ (k : Fin 128) (j : Fin 256), x2 (ix2 k j) = Wr (ix2 k j))
    (h3 : ∀ (k : Fin 128) (j : Fin 256), x3 (ix2 k j) = Wl (ix2 k j))
    (h4 : ∀ j : Fin 256, x4 (ix1 j) = B (ix1 j)) :
    k0_pay1 (F := Ideal) x0 x1 x2 x3 x4 y = Cert.LibGraphConv.layerPos X A Wr Wl B i := by
  obtain ⟨p, q, rfl⟩ : ∃ (p : Fin 5000) (q : Fin 256), y = ix2 p q := ⟨y 0, y 1, eq_ix2 y⟩
  obtain ⟨r, j, rfl⟩ : ∃ (r : Fin 50000) (j : Fin 256), i = ix2 r j := ⟨i 0, i 1, eq_ix2 i⟩
  have hr : r.val = o * 5000 + p.val := hi0
  have hj : j = q := Fin.ext hi1
  subst hj
  rw [pay_apply, Cert.LibGraphConv.layerPos_ix2]
  unfold Cert.LibGraphConv.entry
  simp only [h0 _ _ r hr, h1 _ _ r hr, h2, h3, h4]

variable (V : (c : Dev nD) → (b : Ref sig .tc) → Buf (Elt Ideal) ((c : Thread nD τ).loc b))

/-- The printed index maps over the ten grid points: the two row-tiled inputs move with the output along the rows,
    the weights and the bias stay at block 0, and the output's row block is the grid point. -/
theorem idx_facts : ∀ t : Fin cfg0.N,
      win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) ≤ 9 :=
  (by decide +kernel : ∀ t : Fin grid0.N, _)

/-- Every one of the ten row blocks is some grid point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- What grid point `t` writes back is block `t` of the layer of the arrays the region finds. -/
theorem flushed_eq (c : Dev nD) (t : Fin cfg0.N) :
    (dat0 (F := Ideal) V c).flushed 5 t = ((cfg0.win 5).blk t).view.read (Elt Ideal)
      (Cert.LibGraphConv.layerPos (V c main_arg0) (V c main_v13) (V c main_arg3) (V c main_arg4) (V c main_arg5)) := by
  show (cfg0.win 5).cut (grid0.coords t) ((dat0 (F := Ideal) V c).after 5 t) = _
  rw [after0_5]
  unfold out0_5
  rw [View.canon_unit_zero hz2]
  simp only [View.ld_unit_zero (S := S5000x128) hz2, View.ld_unit_zero (S := S128x256) hz2, View.ld_unit_zero (S := S256) hz1]
  obtain ⟨e00, e01, e10, e11, e20, e21, e30, e31, e40, e51, e50⟩ := idx_facts t
  funext y
  show k0_pay1 (F := Ideal) (iblk0 V c 0 t) (iblk0 V c 1 t) (iblk0 V c 2 t) (iblk0 V c 3 t) (iblk0 V c 4 t) y
    = Cert.LibGraphConv.layerPos (V c main_arg0) (V c main_v13) (V c main_arg3) (V c main_arg4) (V c main_arg5) (((cfg0.win 5).blk t).view.emb y)
  refine tile_eq (V c main_arg0) (V c main_v13) (V c main_arg3) (V c main_arg4) (V c main_arg5)
    (iblk0 V c 0 t) (iblk0 V c 1 t) (iblk0 V c 2 t) (iblk0 V c 3 t) (iblk0 V c 4 t)
    (win0_5.index t (0 : Fin 2)) y (((cfg0.win 5).blk t).view.emb y) ?_ ?_ ?_ ?_ ?_ ?_ ?_
  · show win0_5.index t (0 : Fin 2) * 5000 + 1 * (y 0).val = win0_5.index t (0 : Fin 2) * 5000 + (y 0).val
    omega
  · show win0_5.index t (1 : Fin 2) * 256 + 1 * (y 1).val = (y 1).val
    omega
  · intro p k r hr
    show V c main_arg0 (((cfg0.win 0).blk t).view.emb (ix2 p k)) = V c main_arg0 (ix2 r k)
    refine congrArg _ (funext fun a => Fin.ext ?_)
    match a with
    | ⟨0, _⟩ => show win0_0.index t (0 : Fin 2) * 5000 + 1 * p.val = r.val; omega
    | ⟨1, _⟩ => show win0_0.index t (1 : Fin 2) * 128 + 1 * k.val = k.val; omega
  · intro p k r hr
    show V c main_v13 (((cfg0.win 1).blk t).view.emb (ix2 p k)) = V c main_v13 (ix2 r k)
    refine congrArg _ (funext fun a => Fin.ext ?_)
    match a with
    | ⟨0, _⟩ => show win0_1.index t (0 : Fin 2) * 5000 + 1 * p.val = r.val; omega
    | ⟨1, _⟩ => show win0_1.index t (1 : Fin 2) * 128 + 1 * k.val = k.val; omega
  · intro k j
    show V c main_arg3 (((cfg0.win 2).blk t).view.emb (ix2 k j)) = V c main_arg3 (ix2 k j)
    refine congrArg _ (funext fun a => Fin.ext ?_)
    match a with
    | ⟨0, _⟩ => show win0_2.index t (0 : Fin 2) * 128 + 1 * k.val = k.val; omega
    | ⟨1, _⟩ => show win0_2.index t (1 : Fin 2) * 256 + 1 * j.val = j.val; omega
  · intro k j
    show V c main_arg4 (((cfg0.win 3).blk t).view.emb (ix2 k j)) = V c main_arg4 (ix2 k j)
    refine congrArg _ (funext fun a => Fin.ext ?_)
    match a with
    | ⟨0, _⟩ => show win0_3.index t (0 : Fin 2) * 128 + 1 * k.val = k.val; omega
    | ⟨1, _⟩ => show win0_3.index t (1 : Fin 2) * 256 + 1 * j.val = j.val; omega
  · intro j
    show V c main_arg5 (((cfg0.win 4).blk t).view.emb (ix1 j)) = V c main_arg5 (ix1 j)
    refine congrArg _ (funext fun a => Fin.ext ?_)
    match a with
    | ⟨0, _⟩ => show win0_4.index t (0 : Fin 1) * 256 + 1 * j.val = j.val; omega

/-- An index of the output array is in point `t`'s block iff each coordinate is in the block's range on its axis. -/
theorem mem_blk (t : Fin cfg0.N) (i : S50000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v14).slice (win0_5.rect t)).set ↔ _
  rw [View.set_slice_whole, Rect.mem_set_unit]
  exact Iff.rfl

/-- The ten row blocks cover the output array: row r lies in block r / 5000. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 256 ≤ (i 1).val ∧ (i 1).val < win0_5.index t (1 : Fin 2) * 256 + 256; omega

/-- THE ARRAY the region leaves: the layer of the arrays it finds. -/
theorem final (c : Dev nD) :
    (dat0 (F := Ideal) V c).arrAt 5 cfg0.N
      = Cert.LibGraphConv.layerPos (V c main_arg0) (V c main_v13) (V c main_arg3) (V c main_arg4) (V c main_arg5) :=
  (dat0 (F := Ideal) V c).arrAt_eq_of_cover 5 _ (fun t _ => flushed_eq V c t) cover

end Cert.KernelIdeal.Layer0

end
-- ==== Proof.Layer1.lean ====
/-
  The second graph-convolution layer as one whole array.

  The layer's pallas_call runs over ten tiles of 5000 rows. Tile t loads rows 5000·t … 5000·t + 4999 of the node
  features and of the summed neighbour features (256 columns each), the two whole 256×256 weight matrices and the
  whole bias vector, and stores the 5000×256 block whose entry (p, q) is
      (∑ k, x (5000·t + p, k) · W_root (k, q)  +  ∑ k, agg (5000·t + p, k) · W_rel (k, q))  +  b q,
  followed by the positive part
  (the changes of float format in front of the products are the identity on extended reals). That is entry
  (5000·t + p, q) of ONE function of the whole arrays, `LibGraphConv.layerPos`; the ten row blocks tile the 50000 rows,
  so the array the region leaves is that function of the arrays the region finds — whatever those are (`V`).
-/
import proofs.«158405_j1932735283948_1_alg».proof.Proof.FrameKI
import proofs.«158405_j1932735283948_1_alg».proof.Proof.LibGraphConv
import Idealize.ShloMosaic.Lib.Pipeline.Value

set_option maxRecDepth 16384

noncomputable section

open scoped BigOperators

namespace Cert.KernelIdeal.Layer1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- The tile's stored value at the entry (p, q), from the five loaded blocks. -/
theorem pay_apply (x0 x1 : Vec Ideal S5000x256 .f32) (x2 x3 : Vec Ideal S256x256 .f32) (x4 : Vec Ideal S256 .f32)
    (p : Fin 5000) (q : Fin 256) :
    k1_pay1 (F := Ideal) x0 x1 x2 x3 x4 (ix2 p q) = max (Cert.LibGraphConv.entry x0 x1 x2 x3 x4 p q) 0 := by
  unfold k1_pay1
  refine (Cert.LibGraphConv.tile_pos_apply dot_S5000x256_S256x256_S5000x256_1_0_0_1_n_n rfl rfl rfl rfl rfl rfl none _ _ _ _ x4 _ _ p q).trans ?_
  rw [shapeCast_self x0 _, shapeCast_self x1 _] <;> rfl

/-- A tile's entry is the whole array's: if the loaded blocks are rows o·5000 … of `X` and `A` and the whole of
    `Wr`, `Wl`, `B`, the stored value at `y` is the layer of the whole arrays at row o·5000 + y₀, column y₁. -/
theorem tile_eq (X A : S50000x256.Idx → EReal) (Wr Wl : S256x256.Idx → EReal) (B : S256.Idx → EReal)
    (x0 x1 : Vec Ideal S5000x256 .f32) (x2 x3 : Vec Ideal S256x256 .f32) (x4 : Vec Ideal S256 .f32)
    (o : Nat) (y : S5000x256.Idx) (i : S50000x256.Idx)
    (hi0 : (i 0).val = o * 5000 + (y 0).val) (hi1 : (i 1).val = (y 1).val)
    (h0 : ∀ (p : Fin 5000) (k : Fin 256) (r : Fin 50000), r.val = o * 5000 + p.val → x0 (ix2 p k) = X (ix2 r k))
    (h1 : ∀ (p : Fin 5000) (k : Fin 256) (r : Fin 50000), r.val = o * 5000 + p.val → x1 (ix2 p k) = A (ix2 r k))
    (h2 : ∀ (k : Fin 256) (j : Fin 256), x2 (ix2 k j) = Wr (ix2 k j))
    (h3 : ∀ (k : Fin 256) (j : Fin 256), x3 (ix2 k j) = Wl (ix2 k j))
    (h4 : ∀ j : Fin 256, x4 (ix1 j) = B (ix1 j)) :
    k1_pay1 (F := Ideal) x0 x1 x2 x3 x4 y = Cert.LibGraphConv.layerPos X A Wr Wl B i := by
  obtain ⟨p, q, rfl⟩ : ∃ (p : Fin 5000) (q : Fin 256), y = ix2 p q := ⟨y 0, y 1, eq_ix2 y⟩
  obtain ⟨r, j, rfl⟩ : ∃ (r : Fin 50000) (j : Fin 256), i = ix2 r j := ⟨i 0, i 1, eq_ix2 i⟩
  have hr : r.val = o * 5000 + p.val := hi0
  have hj : j = q := Fin.ext hi1
  subst hj
  rw [pay_apply, Cert.LibGraphConv.layerPos_ix2]
  unfold Cert.LibGraphConv.entry
  simp only [h0 _ _ r hr, h1 _ _ r hr, h2, h3, h4]

variable (V : (c : Dev nD) → (b : Ref sig .tc) → Buf (Elt Ideal) ((c : Thread nD τ).loc b))

/-- The printed index maps over the ten grid points: the two row-tiled inputs move with the output along the rows,
    the weights and the bias stay at block 0, and the output's row block is the grid point. -/
theorem idx_facts : ∀ t : Fin cfg1.N,
      win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (1 : Fin 2) = 0 ∧ win1_5.index t (0 : Fin 2) ≤ 9 :=
  (by decide +kernel : ∀ t : Fin grid1.N, _)

/-- Every one of the ten row blocks is some grid point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- What grid point `t` writes back is block `t` of the layer of the arrays the region finds. -/
theorem flushed_eq (c : Dev nD) (t : Fin cfg1.N) :
    (dat1 (F := Ideal) V c).flushed 5 t = ((cfg1.win 5).blk t).view.read (Elt Ideal)
      (Cert.LibGraphConv.layerPos (V c main_v14) (V c main_v24) (V c main_arg6) (V c main_arg7) (V c main_arg8)) := by
  show (cfg1.win 5).cut (grid1.coords t) ((dat1 (F := Ideal) V c).after 5 t) = _
  rw [after1_5]
  unfold out1_5
  rw [View.canon_unit_zero hz2]
  simp only [View.ld_unit_zero (S := S5000x256) hz2, View.ld_unit_zero (S := S256x256) hz2, View.ld_unit_zero (S := S256) hz1]
  obtain ⟨e00, e01, e10, e11, e20, e21, e30, e31, e40, e51, e50⟩ := idx_facts t
  funext y
  show k1_pay1 (F := Ideal) (iblk1 V c 0 t) (iblk1 V c 1 t) (iblk1 V c 2 t) (iblk1 V c 3 t) (iblk1 V c 4 t) y
    = Cert.LibGraphConv.layerPos (V c main_v14) (V c main_v24) (V c main_arg6) (V c main_arg7) (V c main_arg8) (((cfg1.win 5).blk t).view.emb y)
  refine tile_eq (V c main_v14) (V c main_v24) (V c main_arg6) (V c main_arg7) (V c main_arg8)
    (iblk1 V c 0 t) (iblk1 V c 1 t) (iblk1 V c 2 t) (iblk1 V c 3 t) (iblk1 V c 4 t)
    (win1_5.index t (0 : Fin 2)) y (((cfg1.win 5).blk t).view.emb y) ?_ ?_ ?_ ?_ ?_ ?_ ?_
  · show win1_5.index t (0 : Fin 2) * 5000 + 1 * (y 0).val = win1_5.index t (0 : Fin 2) * 5000 + (y 0).val
    omega
  · show win1_5.index t (1 : Fin 2) * 256 + 1 * (y 1).val = (y 1).val
    omega
  · intro p k r hr
    show V c main_v14 (((cfg1.win 0).blk t).view.emb (ix2 p k)) = V c main_v14 (ix2 r k)
    refine congrArg _ (funext fun a => Fin.ext ?_)
    match a with
    | ⟨0, _⟩ => show win1_0.index t (0 : Fin 2) * 5000 + 1 * p.val = r.val; omega
    | ⟨1, _⟩ => show win1_0.index t (1 : Fin 2) * 256 + 1 * k.val = k.val; omega
  · intro p k r hr
    show V c main_v24 (((cfg1.win 1).blk t).view.emb (ix2 p k)) = V c main_v24 (ix2 r k)
    refine congrArg _ (funext fun a => Fin.ext ?_)
    match a with
    | ⟨0, _⟩ => show win1_1.index t (0 : Fin 2) * 5000 + 1 * p.val = r.val; omega
    | ⟨1, _⟩ => show win1_1.index t (1 : Fin 2) * 256 + 1 * k.val = k.val; omega
  · intro k j
    show V c main_arg6 (((cfg1.win 2).blk t).view.emb (ix2 k j)) = V c main_arg6 (ix2 k j)
    refine congrArg _ (funext fun a => Fin.ext ?_)
    match a with
    | ⟨0, _⟩ => show win1_2.index t (0 : Fin 2) * 256 + 1 * k.val = k.val; omega
    | ⟨1, _⟩ => show win1_2.index t (1 : Fin 2) * 256 + 1 * j.val = j.val; omega
  · intro k j
    show V c main_arg7 (((cfg1.win 3).blk t).view.emb (ix2 k j)) = V c main_arg7 (ix2 k j)
    refine congrArg _ (funext fun a => Fin.ext ?_)
    match a with
    | ⟨0, _⟩ => show win1_3.index t (0 : Fin 2) * 256 + 1 * k.val = k.val; omega
    | ⟨1, _⟩ => show win1_3.index t (1 : Fin 2) * 256 + 1 * j.val = j.val; omega
  · intro j
    show V c main_arg8 (((cfg1.win 4).blk t).view.emb (ix1 j)) = V c main_arg8 (ix1 j)
    refine congrArg _ (funext fun a => Fin.ext ?_)
    match a with
    | ⟨0, _⟩ => show win1_4.index t (0 : Fin 1) * 256 + 1 * j.val = j.val; omega

/-- An index of the output array is in point `t`'s block iff each coordinate is in the block's range on its axis. -/
theorem mem_blk (t : Fin cfg1.N) (i : S50000x256.Idx) :
    i ∈ ((cfg1.win 5).blk t).view.set ↔ ∀ a : Fin 2, win1_5.index t a * S5000x256.size a ≤ (i a).val ∧ (i a).val < win1_5.index t a * S5000x256.size a + S5000x256.size a := by
  show i ∈ ((View.whole main_v25).slice (win1_5.rect t)).set ↔ _
  rw [View.set_slice_whole, Rect.mem_set_unit]
  exact Iff.rfl

/-- The ten row blocks cover the output array: row r lies in block r / 5000. -/
theorem cover (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 256 ≤ (i 1).val ∧ (i 1).val < win1_5.index t (1 : Fin 2) * 256 + 256; omega

/-- THE ARRAY the region leaves: the layer of the arrays it finds. -/
theorem final (c : Dev nD) :
    (dat1 (F := Ideal) V c).arrAt 5 cfg1.N
      = Cert.LibGraphConv.layerPos (V c main_v14) (V c main_v24) (V c main_arg6) (V c main_arg7) (V c main_arg8) :=
  (dat1 (F := Ideal) V c).arrAt_eq_of_cover 5 _ (fun t _ => flushed_eq V c t) cover

end Cert.KernelIdeal.Layer1

end
-- ==== Proof.Layer2.lean ====
/-
  The third graph-convolution layer as one whole array.

  The layer's pallas_call runs over ten tiles of 5000 rows. Tile t loads rows 5000·t … 5000·t + 4999 of the node
  features and of the summed neighbour features (256 columns each), the two whole 256×256 weight matrices and the
  whole bias vector, and stores the 5000×256 block whose entry (p, q) is
      (∑ k, x (5000·t + p, k) · W_root (k, q)  +  ∑ k, agg (5000·t + p, k) · W_rel (k, q))  +  b q
  (the changes of float format in front of the products are the identity on extended reals). That is entry
  (5000·t + p, q) of ONE function of the whole arrays, `LibGraphConv.layer`; the ten row blocks tile the 50000 rows,
  so the array the region leaves is that function of the arrays the region finds — whatever those are (`V`).
-/
import proofs.«158405_j1932735283948_1_alg».proof.Proof.FrameKI
import proofs.«158405_j1932735283948_1_alg».proof.Proof.LibGraphConv
import Idealize.ShloMosaic.Lib.Pipeline.Value

set_option maxRecDepth 16384

noncomputable section

open scoped BigOperators

namespace Cert.KernelIdeal.Layer2

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- The tile's stored value at the entry (p, q), from the five loaded blocks. -/
theorem pay_apply (x0 x1 : Vec Ideal S5000x256 .f32) (x2 x3 : Vec Ideal S256x256 .f32) (x4 : Vec Ideal S256 .f32)
    (p : Fin 5000) (q : Fin 256) :
    k2_pay1 (F := Ideal) x0 x1 x2 x3 x4 (ix2 p q) = Cert.LibGraphConv.entry x0 x1 x2 x3 x4 p q := by
  unfold k2_pay1
  refine (Cert.LibGraphConv.tile_apply dot_S5000x256_S256x256_S5000x256_1_0_0_1_n_n rfl rfl rfl rfl rfl rfl none _ _ _ _ x4 _ _ p q).trans ?_
  rw [shapeCast_self x0 _, shapeCast_self x1 _] <;> rfl

/-- A tile's entry is the whole array's: if the loaded blocks are rows o·5000 … of `X` and `A` and the whole of
    `Wr`, `Wl`, `B`, the stored value at `y` is the layer of the whole arrays at row o·5000 + y₀, column y₁. -/
theorem tile_eq (X A : S50000x256.Idx → EReal) (Wr Wl : S256x256.Idx → EReal) (B : S256.Idx → EReal)
    (x0 x1 : Vec Ideal S5000x256 .f32) (x2 x3 : Vec Ideal S256x256 .f32) (x4 : Vec Ideal S256 .f32)
    (o : Nat) (y : S5000x256.Idx) (i : S50000x256.Idx)
    (hi0 : (i 0).val = o * 5000 + (y 0).val) (hi1 : (i 1).val = (y 1).val)
    (h0 : ∀ (p : Fin 5000) (k : Fin 256) (r : Fin 50000), r.val = o * 5000 + p.val → x0 (ix2 p k) = X (ix2 r k))
    (h1 : ∀ (p : Fin 5000) (k : Fin 256) (r : Fin 50000), r.val = o * 5000 + p.val → x1 (ix2 p k) = A (ix2 r k))
    (h2 : ∀ (k : Fin 256) (j : Fin 256), x2 (ix2 k j) = Wr (ix2 k j))
    (h3 : ∀ (k : Fin 256) (j : Fin 256), x3 (ix2 k j) = Wl (ix2 k j))
    (h4 : ∀ j : Fin 256, x4 (ix1 j) = B (ix1 j)) :
    k2_pay1 (F := Ideal) x0 x1 x2 x3 x4 y = Cert.LibGraphConv.layer X A Wr Wl B i := by
  obtain ⟨p, q, rfl⟩ : ∃ (p : Fin 5000) (q : Fin 256), y = ix2 p q := ⟨y 0, y 1, eq_ix2 y⟩
  obtain ⟨r, j, rfl⟩ : ∃ (r : Fin 50000) (j : Fin 256), i = ix2 r j := ⟨i 0, i 1, eq_ix2 i⟩
  have hr : r.val = o * 5000 + p.val := hi0
  have hj : j = q := Fin.ext hi1
  subst hj
  rw [pay_apply, Cert.LibGraphConv.layer_ix2]
  unfold Cert.LibGraphConv.entry
  simp only [h0 _ _ r hr, h1 _ _ r hr, h2, h3, h4]

variable (V : (c : Dev nD) → (b : Ref sig .tc) → Buf (Elt Ideal) ((c : Thread nD τ).loc b))

/-- The printed index maps over the ten grid points: the two row-tiled inputs move with the output along the rows,
    the weights and the bias stay at block 0, and the output's row block is the grid point. -/
theorem idx_facts : ∀ t : Fin cfg2.N,
      win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (1 : Fin 2) = 0 ∧ win2_5.index t (0 : Fin 2) ≤ 9 :=
  (by decide +kernel : ∀ t : Fin grid2.N, _)

/-- Every one of the ten row blocks is some grid point's. -/
theorem idx_onto : ∀ q0 : Fin 10, ∃ t : Fin cfg2.N, win2_5.index t = ![q0.val, 0] :=
  (by decide +kernel : ∀ q0 : Fin 10, ∃ t : Fin grid2.N, win2_5.index t = ![q0.val, 0])

/-- What grid point `t` writes back is block `t` of the layer of the arrays the region finds. -/
theorem flushed_eq (c : Dev nD) (t : Fin cfg2.N) :
    (dat2 (F := Ideal) V c).flushed 5 t = ((cfg2.win 5).blk t).view.read (Elt Ideal)
      (Cert.LibGraphConv.layer (V c main_v25) (V c main_v35) (V c main_arg9) (V c main_arg10) (V c main_arg11)) := by
  show (cfg2.win 5).cut (grid2.coords t) ((dat2 (F := Ideal) V c).after 5 t) = _
  rw [after2_5]
  unfold out2_5
  rw [View.canon_unit_zero hz2]
  simp only [View.ld_unit_zero (S := S5000x256) hz2, View.ld_unit_zero (S := S256x256) hz2, View.ld_unit_zero (S := S256) hz1]
  obtain ⟨e00, e01, e10, e11, e20, e21, e30, e31, e40, e51, e50⟩ := idx_facts t
  funext y
  show k2_pay1 (F := Ideal) (iblk2 V c 0 t) (iblk2 V c 1 t) (iblk2 V c 2 t) (iblk2 V c 3 t) (iblk2 V c 4 t) y
    = Cert.LibGraphConv.layer (V c main_v25) (V c main_v35) (V c main_arg9) (V c main_arg10) (V c main_arg11) (((cfg2.win 5).blk t).view.emb y)
  refine tile_eq (V c main_v25) (V c main_v35) (V c main_arg9) (V c main_arg10) (V c main_arg11)
    (iblk2 V c 0 t) (iblk2 V c 1 t) (iblk2 V c 2 t) (iblk2 V c 3 t) (iblk2 V c 4 t)
    (win2_5.index t (0 : Fin 2)) y (((cfg2.win 5).blk t).view.emb y) ?_ ?_ ?_ ?_ ?_ ?_ ?_
  · show win2_5.index t (0 : Fin 2) * 5000 + 1 * (y 0).val = win2_5.index t (0 : Fin 2) * 5000 + (y 0).val
    omega
  · show win2_5.index t (1 : Fin 2) * 256 + 1 * (y 1).val = (y 1).val
    omega
  · intro p k r hr
    show V c main_v25 (((cfg2.win 0).blk t).view.emb (ix2 p k)) = V c main_v25 (ix2 r k)
    refine congrArg _ (funext fun a => Fin.ext ?_)
    match a with
    | ⟨0, _⟩ => show win2_0.index t (0 : Fin 2) * 5000 + 1 * p.val = r.val; omega
    | ⟨1, _⟩ => show win2_0.index t (1 : Fin 2) * 256 + 1 * k.val = k.val; omega
  · intro p k r hr
    show V c main_v35 (((cfg2.win 1).blk t).view.emb (ix2 p k)) = V c main_v35 (ix2 r k)
    refine congrArg _ (funext fun a => Fin.ext ?_)
    match a with
    | ⟨0, _⟩ => show win2_1.index t (0 : Fin 2) * 5000 + 1 * p.val = r.val; omega
    | ⟨1, _⟩ => show win2_1.index t (1 : Fin 2) * 256 + 1 * k.val = k.val; omega
  · intro k j
    show V c main_arg9 (((cfg2.win 2).blk t).view.emb (ix2 k j)) = V c main_arg9 (ix2 k j)
    refine congrArg _ (funext fun a => Fin.ext ?_)
    match a with
    | ⟨0, _⟩ => show win2_2.index t (0 : Fin 2) * 256 + 1 * k.val = k.val; omega
    | ⟨1, _⟩ => show win2_2.index t (1 : Fin 2) * 256 + 1 * j.val = j.val; omega
  · intro k j
    show V c main_arg10 (((cfg2.win 3).blk t).view.emb (ix2 k j)) = V c main_arg10 (ix2 k j)
    refine congrArg _ (funext fun a => Fin.ext ?_)
    match a with
    | ⟨0, _⟩ => show win2_3.index t (0 : Fin 2) * 256 + 1 * k.val = k.val; omega
    | ⟨1, _⟩ => show win2_3.index t (1 : Fin 2) * 256 + 1 * j.val = j.val; omega
  · intro j
    show V c main_arg11 (((cfg2.win 4).blk t).view.emb (ix1 j)) = V c main_arg11 (ix1 j)
    refine congrArg _ (funext fun a => Fin.ext ?_)
    match a with
    | ⟨0, _⟩ => show win2_4.index t (0 : Fin 1) * 256 + 1 * j.val = j.val; omega

/-- An index of the output array is in point `t`'s block iff each coordinate is in the block's range on its axis. -/
theorem mem_blk (t : Fin cfg2.N) (i : S50000x256.Idx) :
    i ∈ ((cfg2.win 5).blk t).view.set ↔ ∀ a : Fin 2, win2_5.index t a * S5000x256.size a ≤ (i a).val ∧ (i a).val < win2_5.index t a * S5000x256.size a + S5000x256.size a := by
  show i ∈ ((View.whole main_v36).slice (win2_5.rect t)).set ↔ _
  rw [View.set_slice_whole, Rect.mem_set_unit]
  exact Iff.rfl

/-- The ten row blocks cover the output array: row r lies in block r / 5000. -/
theorem cover (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 256 ≤ (i 1).val ∧ (i 1).val < win2_5.index t (1 : Fin 2) * 256 + 256; omega

/-- THE ARRAY the region leaves: the layer of the arrays it finds. -/
theorem final (c : Dev nD) :
    (dat2 (F := Ideal) V c).arrAt 5 cfg2.N
      = Cert.LibGraphConv.layer (V c main_v25) (V c main_v35) (V c main_arg9) (V c main_arg10) (V c main_arg11) :=
  (dat2 (F := Ideal) V c).arrAt_eq_of_cover 5 _ (fun t _ => flushed_eq V c t) cover

end Cert.KernelIdeal.Layer2

end
-- ==== Proof.RefLayers.lean ====
/-
  The reference's three layers, each as one whole array.

  The reference computes a layer with two host dot_generals, added; the bias broadcast to one row and then over the
  50000 rows, added; and (first two layers) a maximum with the broadcast zero constant. Read at an entry that is
  `LibGraphConv.layer` / `layerPos` of the node features, the summed neighbour features, the two weight matrices
  and the bias. The gather / scatter-add that sums the neighbour features is left as the stage it is.
-/
import proofs.«158405_j1932735283948_1_alg».proof.Proof.Gen.ReferenceIdeal.Read
import proofs.«158405_j1932735283948_1_alg».proof.Proof.LibGraphConv

noncomputable section

namespace Cert.ReferenceIdeal.Layers

open Cert.ReferenceIdeal Cert.ReferenceIdeal.Gen Cert.ReferenceIdeal.Read Idealize.ShloMosaic

/-- Layer 1: `relu (x · W1_root + agg₁ · W1_rel + b1)`, with agg₁ the stage `val_main_v13`. -/
theorem layer1_eq (x0 : (⟨S50000x128, .f32⟩ : BufTy).Contents (Elt Ideal)) (x1 : (⟨S2x800000, .i32⟩ : BufTy).Contents (Elt Ideal))
    (x3 x4 : (⟨S128x256, .f32⟩ : BufTy).Contents (Elt Ideal)) (x5 : (⟨S256, .f32⟩ : BufTy).Contents (Elt Ideal)) :
    val_main_v20 (F := Ideal) x0 x1 x3 x4 x5
      = Cert.LibGraphConv.layerPos x0 (val_main_v13 (F := Ideal) x0 x1) x3 x4 x5 := by
  unfold val_main_v20 val_main_v19 val_main_v16 val_main_v14 val_main_v15 val_main_v18 val_main_v17 val_main_call0_v0 val_main_call0_cst
  exact Cert.LibGraphConv.host_eq_layerPos dot_S50000x128_S128x256_S50000x256_1_0_0_1_n_n rfl rfl rfl rfl rfl rfl none
    x0 (val_main_v13 (F := Ideal) x0 x1) x3 x4 x5 _ _ _

/-- Layer 2: `relu (h₁ · W2_root + agg₂ · W2_rel + b2)`, with h₁ the stage `val_main_v20` and agg₂ `val_main_v30`. -/
theorem layer2_eq (x0 : (⟨S50000x128, .f32⟩ : BufTy).Contents (Elt Ideal)) (x1 : (⟨S2x800000, .i32⟩ : BufTy).Contents (Elt Ideal))
    (x3 x4 : (⟨S128x256, .f32⟩ : BufTy).Contents (Elt Ideal)) (x5 : (⟨S256, .f32⟩ : BufTy).Contents (Elt Ideal))
    (x6 x7 : (⟨S256x256, .f32⟩ : BufTy).Contents (Elt Ideal)) (x8 : (⟨S256, .f32⟩ : BufTy).Contents (Elt Ideal)) :
    val_main_v37 (F := Ideal) x0 x1 x3 x4 x5 x6 x7 x8
      = Cert.LibGraphConv.layerPos (val_main_v20 (F := Ideal) x0 x1 x3 x4 x5) (val_main_v30 (F := Ideal) x0 x1 x3 x4 x5) x6 x7 x8 := by
  unfold val_main_v37 val_main_v36 val_main_v33 val_main_v31 val_main_v32 val_main_v35 val_main_v34 val_main_call1_v0 val_main_call1_cst
  exact Cert.LibGraphConv.host_eq_layerPos dot_S50000x256_S256x256_S50000x256_1_0_0_1_n_n rfl rfl rfl rfl rfl rfl none
    (val_main_v20 (F := Ideal) x0 x1 x3 x4 x5) (val_main_v30 (F := Ideal) x0 x1 x3 x4 x5) x6 x7 x8 _ _ _

/-- Layer 3: `h₂ · W3_root + agg₃ · W3_rel + b3`, with h₂ the stage `val_main_v37` and agg₃ `val_main_v47`. -/
theorem layer3_eq (x0 : (⟨S50000x128, .f32⟩ : BufTy).Contents (Elt Ideal)) (x1 : (⟨S2x800000, .i32⟩ : BufTy).Contents (Elt Ideal))
    (x3 x4 : (⟨S128x256, .f32⟩ : BufTy).Contents (Elt Ideal)) (x5 : (⟨S256, .f32⟩ : BufTy).Contents (Elt Ideal))
    (x6 x7 : (⟨S256x256, .f32⟩ : BufTy).Contents (Elt Ideal)) (x8 : (⟨S256, .f32⟩ : BufTy).Contents (Elt Ideal))
    (x9 x10 : (⟨S256x256, .f32⟩ : BufTy).Contents (Elt Ideal)) (x11 : (⟨S256, .f32⟩ : BufTy).Contents (Elt Ideal)) :
    val_main_v53 (F := Ideal) x0 x1 x3 x4 x5 x6 x7 x8 x9 x10 x11
      = Cert.LibGraphConv.layer (val_main_v37 (F := Ideal) x0 x1 x3 x4 x5 x6 x7 x8) (val_main_v47 (F := Ideal) x0 x1 x3 x4 x5 x6 x7 x8) x9 x10 x11 := by
  unfold val_main_v53 val_main_v50 val_main_v48 val_main_v49 val_main_v52 val_main_v51
  exact Cert.LibGraphConv.host_eq_layer dot_S50000x256_S256x256_S50000x256_1_0_0_1_n_n rfl rfl rfl rfl rfl rfl none
    (val_main_v37 (F := Ideal) x0 x1 x3 x4 x5 x6 x7 x8) (val_main_v47 (F := Ideal) x0 x1 x3 x4 x5 x6 x7 x8) x9 x10 x11 _ _

end Cert.ReferenceIdeal.Layers

end
-- ==== Proof.KernelValue.lean ====
/-
  The idealized kernel's result as a function of its arguments.

  The run leaves every buffer at the fold `W7` through @main's seven segments (KernelRun.lean). That fold is walked
  here from the launch to the result, one boundary at a time, and at each boundary the buffers that matter are
  identified with the reference's stages of the same arguments (the generated Read module's `val_…`):

    * a stretch of host operations applies the same StableHLO operations as the reference does — the edge
      endpoints sliced out of edge_index and normalized, the gather of the source rows and the scatter-add into the
      destination rows, and at the end the mean pool and the linear head — to buffers already identified, so its
      results are the reference's next stages, by unfolding both sides' definitions and nothing else;
    * a region leaves in its output array the layer of the arrays it finds (Layer0 / Layer1 / Layer2), which is
      the reference's layer of the same arrays (RefLayers.lean);
    * every other buffer is carried unchanged across a stretch that does not write it and across a region it is
      not an array of.

  So the result buffer holds the reference's result stage of the kernel's own arguments.
-/
import proofs.«158405_j1932735283948_1_alg».proof.Proof.FrameKI
import proofs.«158405_j1932735283948_1_alg».proof.Proof.Layer0
import proofs.«158405_j1932735283948_1_alg».proof.Proof.Layer1
import proofs.«158405_j1932735283948_1_alg».proof.Proof.Layer2
import proofs.«158405_j1932735283948_1_alg».proof.Proof.RefLayers

set_option maxRecDepth 16384

noncomputable section

namespace Cert.KernelIdeal.Chain

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ) (ρ : Dev nD → PrngReg) (c : Dev nD)

/-! ## After the first stretch of host operations (the edge endpoints, the first neighbour sum) -/

theorem w1_v1 : W1 (F := Ideal) m ρ c (Proc.devRef .tc main_v1) = Cert.ReferenceIdeal.Read.val_main_v1 (F := Ideal) (m ((c.tc : Thread nD τ).loc main_arg1)) := by
  show StableHlo.after hostOps0 (W0 m ρ c) (Proc.devRef .tc main_v1) = _
  after_results
  all_goals rfl

theorem w1_v3 : W1 (F := Ideal) m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  after_results
  all_goals rfl

/-- The summed neighbour features of the input: the same gather and scatter-add as the reference's. -/
theorem w1_v13 : W1 (F := Ideal) m ρ c (Proc.devRef .tc main_v13) = Cert.ReferenceIdeal.Read.val_main_v13 (F := Ideal) (m ((c.tc : Thread nD τ).loc main_arg0)) (m ((c.tc : Thread nD τ).loc main_arg1)) := by
  show StableHlo.after hostOps0 (W0 m ρ c) (Proc.devRef .tc main_v13) = _
  after_results
  all_goals rfl

theorem w1_arg0 : W1 (F := Ideal) m ρ c (Proc.devRef .tc main_arg0) = (m ((c.tc : Thread nD τ).loc main_arg0)) := by
  show StableHlo.after hostOps0 (W0 m ρ c) (Proc.devRef .tc main_arg0) = _
  after_results
  all_goals rfl

theorem w1_arg2 : W1 (F := Ideal) m ρ c (Proc.devRef .tc main_arg2) = (m ((c.tc : Thread nD τ).loc main_arg2)) := by
  show StableHlo.after hostOps0 (W0 m ρ c) (Proc.devRef .tc main_arg2) = _
  after_results
  all_goals rfl

theorem w1_arg3 : W1 (F := Ideal) m ρ c (Proc.devRef .tc main_arg3) = (m ((c.tc : Thread nD τ).loc main_arg3)) := by
  show StableHlo.after hostOps0 (W0 m ρ c) (Proc.devRef .tc main_arg3) = _
  after_results
  all_goals rfl

theorem w1_arg4 : W1 (F := Ideal) m ρ c (Proc.devRef .tc main_arg4) = (m ((c.tc : Thread nD τ).loc main_arg4)) := by
  show StableHlo.after hostOps0 (W0 m ρ c) (Proc.devRef .tc main_arg4) = _
  after_results
  all_goals rfl

theorem w1_arg5 : W1 (F := Ideal) m ρ c (Proc.devRef .tc main_arg5) = (m ((c.tc : Thread nD τ).loc main_arg5)) := by
  show StableHlo.after hostOps0 (W0 m ρ c) (Proc.devRef .tc main_arg5) = _
  after_results
  all_goals rfl

theorem w1_arg6 : W1 (F := Ideal) m ρ c (Proc.devRef .tc main_arg6) = (m ((c.tc : Thread nD τ).loc main_arg6)) := by
  show StableHlo.after hostOps0 (W0 m ρ c) (Proc.devRef .tc main_arg6) = _
  after_results
  all_goals rfl

theorem w1_arg7 : W1 (F := Ideal) m ρ c (Proc.devRef .tc main_arg7) = (m ((c.tc : Thread nD τ).loc main_arg7)) := by
  show StableHlo.after hostOps0 (W0 m ρ c) (Proc.devRef .tc main_arg7) = _
  after_results
  all_goals rfl

theorem w1_arg8 : W1 (F := Ideal) m ρ c (Proc.devRef .tc main_arg8) = (m ((c.tc : Thread nD τ).loc main_arg8)) := by
  show StableHlo.after hostOps0 (W0 m ρ c) (Proc.devRef .tc main_arg8) = _
  after_results
  all_goals rfl

theorem w1_arg9 : W1 (F := Ideal) m ρ c (Proc.devRef .tc main_arg9) = (m ((c.tc : Thread nD τ).loc main_arg9)) := by
  show StableHlo.after hostOps0 (W0 m ρ c) (Proc.devRef .tc main_arg9) = _
  after_results
  all_goals rfl

theorem w1_arg10 : W1 (F := Ideal) m ρ c (Proc.devRef .tc main_arg10) = (m ((c.tc : Thread nD τ).loc main_arg10)) := by
  show StableHlo.after hostOps0 (W0 m ρ c) (Proc.devRef .tc main_arg10) = _
  after_results
  all_goals rfl

theorem w1_arg11 : W1 (F := Ideal) m ρ c (Proc.devRef .tc main_arg11) = (m ((c.tc : Thread nD τ).loc main_arg11)) := by
  show StableHlo.after hostOps0 (W0 m ρ c) (Proc.devRef .tc main_arg11) = _
  after_results
  all_goals rfl

theorem w1_arg12 : W1 (F := Ideal) m ρ c (Proc.devRef .tc main_arg12) = (m ((c.tc : Thread nD τ).loc main_arg12)) := by
  show StableHlo.after hostOps0 (W0 m ρ c) (Proc.devRef .tc main_arg12) = _
  after_results
  all_goals rfl

theorem w1_arg13 : W1 (F := Ideal) m ρ c (Proc.devRef .tc main_arg13) = (m ((c.tc : Thread nD τ).loc main_arg13)) := by
  show StableHlo.after hostOps0 (W0 m ρ c) (Proc.devRef .tc main_arg13) = _
  after_results
  all_goals rfl

/-! ## After the first region: the first layer -/

theorem w2_v14 : W2 (F := Ideal) m ρ c (Proc.devRef .tc main_v14) = Cert.ReferenceIdeal.Read.val_main_v20 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (W2_arr m ρ c 5).trans ((Cert.KernelIdeal.Layer0.final (V1 m ρ) c).trans ?_)
  show Cert.LibGraphConv.layerPos (W1 (F := Ideal) m ρ c (Proc.devRef .tc main_arg0)) (W1 (F := Ideal) m ρ c (Proc.devRef .tc main_v13)) (W1 (F := Ideal) m ρ c (Proc.devRef .tc main_arg3)) (W1 (F := Ideal) m ρ c (Proc.devRef .tc main_arg4)) (W1 (F := Ideal) m ρ c (Proc.devRef .tc main_arg5)) = _
  rw [w1_arg0, w1_v13, w1_arg3, w1_arg4, w1_arg5]
  exact (Cert.ReferenceIdeal.Layers.layer1_eq _ _ _ _ _).symm

theorem w2_v1 : W2 (F := Ideal) m ρ c (Proc.devRef .tc main_v1) = Cert.ReferenceIdeal.Read.val_main_v1 (F := Ideal) (m ((c.tc : Thread nD τ).loc main_arg1)) :=
  (W2_of_ne m ρ c main_v1 (by decide)).trans (w1_v1 m ρ c)

theorem w2_v3 : W2 (F := Ideal) m ρ c (Proc.devRef .tc main_v3) = Cert.ReferenceIdeal.Read.val_main_v3 (F := Ideal) (m ((c.tc : Thread nD τ).loc main_arg1)) :=
  (W2_of_ne m ρ c main_v3 (by decide)).trans (w1_v3 m ρ c)

theorem w2_arg2 : W2 (F := Ideal) m ρ c (Proc.devRef .tc main_arg2) = (m ((c.tc : Thread nD τ).loc main_arg2)) :=
  (W2_of_ne m ρ c main_arg2 (by decide)).trans (w1_arg2 m ρ c)

theorem w2_arg6 : W2 (F := Ideal) m ρ c (Proc.devRef .tc main_arg6) = (m ((c.tc : Thread nD τ).loc main_arg6)) :=
  (W2_of_ne m ρ c main_arg6 (by decide)).trans (w1_arg6 m ρ c)

theorem w2_arg7 : W2 (F := Ideal) m ρ c (Proc.devRef .tc main_arg7) = (m ((c.tc : Thread nD τ).loc main_arg7)) :=
  (W2_of_ne m ρ c main_arg7 (by decide)).trans (w1_arg7 m ρ c)

theorem w2_arg8 : W2 (F := Ideal) m ρ c (Proc.devRef .tc main_arg8) = (m ((c.tc : Thread nD τ).loc main_arg8)) :=
  (W2_of_ne m ρ c main_arg8 (by decide)).trans (w1_arg8 m ρ c)

theorem w2_arg9 : W2 (F := Ideal) m ρ c (Proc.devRef .tc main_arg9) = (m ((c.tc : Thread nD τ).loc main_arg9)) :=
  (W2_of_ne m ρ c main_arg9 (by decide)).trans (w1_arg9 m ρ c)

theorem w2_arg10 : W2 (F := Ideal) m ρ c (Proc.devRef .tc main_arg10) = (m ((c.tc : Thread nD τ).loc main_arg10)) :=
  (W2_of_ne m ρ c main_arg10 (by decide)).trans (w1_arg10 m ρ c)

theorem w2_arg11 : W2 (F := Ideal) m ρ c (Proc.devRef .tc main_arg11) = (m ((c.tc : Thread nD τ).loc main_arg11)) :=
  (W2_of_ne m ρ c main_arg11 (by decide)).trans (w1_arg11 m ρ c)

theorem w2_arg12 : W2 (F := Ideal) m ρ c (Proc.devRef .tc main_arg12) = (m ((c.tc : Thread nD τ).loc main_arg12)) :=
  (W2_of_ne m ρ c main_arg12 (by decide)).trans (w1_arg12 m ρ c)

theorem w2_arg13 : W2 (F := Ideal) m ρ c (Proc.devRef .tc main_arg13) = (m ((c.tc : Thread nD τ).loc main_arg13)) :=
  (W2_of_ne m ρ c main_arg13 (by decide)).trans (w1_arg13 m ρ c)

/-! ## After the second stretch: the neighbour sum of the first layer's output -/

set_option maxHeartbeats 4000000 in
/-- The second stretch's neighbour sum from ANY buffer contents whose three reads are the reference's stages. -/
theorem agg2_of (Wv : Valuation τ sig (Elt Ideal))
    (h14 : Wv (Proc.devRef .tc main_v14) = Cert.ReferenceIdeal.Read.val_main_v20 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)))
    (h1 : Wv (Proc.devRef .tc main_v1) = Cert.ReferenceIdeal.Read.val_main_v1 (F := Ideal) (m ((c.tc : Thread nD τ).loc main_arg1)))
    (h3 : Wv (Proc.devRef .tc main_v3) = Cert.ReferenceIdeal.Read.val_main_v3 (F := Ideal) (m ((c.tc : Thread nD τ).loc main_arg1))) :
    StableHlo.after hostOps1 Wv (Proc.devRef .tc main_v24) = Cert.ReferenceIdeal.Read.val_main_v30 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  after_results_simp
  rw [h14, h1, h3]
  rfl

theorem w3_v24 : W3 (F := Ideal) m ρ c (Proc.devRef .tc main_v24) = Cert.ReferenceIdeal.Read.val_main_v30 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  agg2_of m c (W2 m ρ c) (w2_v14 m ρ c) (w2_v1 m ρ c) (w2_v3 m ρ c)

theorem w3_v14 : W3 (F := Ideal) m ρ c (Proc.devRef .tc main_v14) = Cert.ReferenceIdeal.Read.val_main_v20 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  show StableHlo.after hostOps1 (W2 m ρ c) (Proc.devRef .tc main_v14) = _
  after_results
  exact w2_v14 m ρ c

theorem w3_v1 : W3 (F := Ideal) m ρ c (Proc.devRef .tc main_v1) = Cert.ReferenceIdeal.Read.val_main_v1 (F := Ideal) (m ((c.tc : Thread nD τ).loc main_arg1)) := by
  show StableHlo.after hostOps1 (W2 m ρ c) (Proc.devRef .tc main_v1) = _
  after_results
  exact w2_v1 m ρ c

theorem w3_v3 : W3 (F := Ideal) m ρ c (Proc.devRef .tc main_v3) = Cert.ReferenceIdeal.Read.val_main_v3 (F := Ideal) (m ((c.tc : Thread nD τ).loc main_arg1)) := by
  show StableHlo.after hostOps1 (W2 m ρ c) (Proc.devRef .tc main_v3) = _
  after_results
  exact w2_v3 m ρ c

theorem w3_arg2 : W3 (F := Ideal) m ρ c (Proc.devRef .tc main_arg2) = (m ((c.tc : Thread nD τ).loc main_arg2)) := by
  show StableHlo.after hostOps1 (W2 m ρ c) (Proc.devRef .tc main_arg2) = _
  after_results
  exact w2_arg2 m ρ c

theorem w3_arg6 : W3 (F := Ideal) m ρ c (Proc.devRef .tc main_arg6) = (m ((c.tc : Thread nD τ).loc main_arg6)) := by
  show StableHlo.after hostOps1 (W2 m ρ c) (Proc.devRef .tc main_arg6) = _
  after_results
  exact w2_arg6 m ρ c

theorem w3_arg7 : W3 (F := Ideal) m ρ c (Proc.devRef .tc main_arg7) = (m ((c.tc : Thread nD τ).loc main_arg7)) := by
  show StableHlo.after hostOps1 (W2 m ρ c) (Proc.devRef .tc main_arg7) = _
  after_results
  exact w2_arg7 m ρ c

theorem w3_arg8 : W3 (F := Ideal) m ρ c (Proc.devRef .tc main_arg8) = (m ((c.tc : Thread nD τ).loc main_arg8)) := by
  show StableHlo.after hostOps1 (W2 m ρ c) (Proc.devRef .tc main_arg8) = _
  after_results
  exact w2_arg8 m ρ c

theorem w3_arg9 : W3 (F := Ideal) m ρ c (Proc.devRef .tc main_arg9) = (m ((c.tc : Thread nD τ).loc main_arg9)) := by
  show StableHlo.after hostOps1 (W2 m ρ c) (Proc.devRef .tc main_arg9) = _
  after_results
  exact w2_arg9 m ρ c

theorem w3_arg10 : W3 (F := Ideal) m ρ c (Proc.devRef .tc main_arg10) = (m ((c.tc : Thread nD τ).loc main_arg10)) := by
  show StableHlo.after hostOps1 (W2 m ρ c) (Proc.devRef .tc main_arg10) = _
  after_results
  exact w2_arg10 m ρ c

theorem w3_arg11 : W3 (F := Ideal) m ρ c (Proc.devRef .tc main_arg11) = (m ((c.tc : Thread nD τ).loc main_arg11)) := by
  show StableHlo.after hostOps1 (W2 m ρ c) (Proc.devRef .tc main_arg11) = _
  after_results
  exact w2_arg11 m ρ c

theorem w3_arg12 : W3 (F := Ideal) m ρ c (Proc.devRef .tc main_arg12) = (m ((c.tc : Thread nD τ).loc main_arg12)) := by
  show StableHlo.after hostOps1 (W2 m ρ c) (Proc.devRef .tc main_arg12) = _
  after_results
  exact w2_arg12 m ρ c

theorem w3_arg13 : W3 (F := Ideal) m ρ c (Proc.devRef .tc main_arg13) = (m ((c.tc : Thread nD τ).loc main_arg13)) := by
  show StableHlo.after hostOps1 (W2 m ρ c) (Proc.devRef .tc main_arg13) = _
  after_results
  exact w2_arg13 m ρ c

/-! ## After the second region: the second layer -/

theorem w4_v25 : W4 (F := Ideal) m ρ c (Proc.devRef .tc main_v25) = Cert.ReferenceIdeal.Read.val_main_v37 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W4_arr m ρ c 5).trans ((Cert.KernelIdeal.Layer1.final (V3 m ρ) c).trans ?_)
  show Cert.LibGraphConv.layerPos (W3 (F := Ideal) m ρ c (Proc.devRef .tc main_v14)) (W3 (F := Ideal) m ρ c (Proc.devRef .tc main_v24)) (W3 (F := Ideal) m ρ c (Proc.devRef .tc main_arg6)) (W3 (F := Ideal) m ρ c (Proc.devRef .tc main_arg7)) (W3 (F := Ideal) m ρ c (Proc.devRef .tc main_arg8)) = _
  rw [w3_v14, w3_v24, w3_arg6, w3_arg7, w3_arg8]
  exact (Cert.ReferenceIdeal.Layers.layer2_eq _ _ _ _ _ _ _ _).symm

theorem w4_v1 : W4 (F := Ideal) m ρ c (Proc.devRef .tc main_v1) = Cert.ReferenceIdeal.Read.val_main_v1 (F := Ideal) (m ((c.tc : Thread nD τ).loc main_arg1)) :=
  (W4_of_ne m ρ c main_v1 (by decide)).trans (w3_v1 m ρ c)

theorem w4_v3 : W4 (F := Ideal) m ρ c (Proc.devRef .tc main_v3) = Cert.ReferenceIdeal.Read.val_main_v3 (F := Ideal) (m ((c.tc : Thread nD τ).loc main_arg1)) :=
  (W4_of_ne m ρ c main_v3 (by decide)).trans (w3_v3 m ρ c)

theorem w4_arg2 : W4 (F := Ideal) m ρ c (Proc.devRef .tc main_arg2) = (m ((c.tc : Thread nD τ).loc main_arg2)) :=
  (W4_of_ne m ρ c main_arg2 (by decide)).trans (w3_arg2 m ρ c)

theorem w4_arg9 : W4 (F := Ideal) m ρ c (Proc.devRef .tc main_arg9) = (m ((c.tc : Thread nD τ).loc main_arg9)) :=
  (W4_of_ne m ρ c main_arg9 (by decide)).trans (w3_arg9 m ρ c)

theorem w4_arg10 : W4 (F := Ideal) m ρ c (Proc.devRef .tc main_arg10) = (m ((c.tc : Thread nD τ).loc main_arg10)) :=
  (W4_of_ne m ρ c main_arg10 (by decide)).trans (w3_arg10 m ρ c)

theorem w4_arg11 : W4 (F := Ideal) m ρ c (Proc.devRef .tc main_arg11) = (m ((c.tc : Thread nD τ).loc main_arg11)) :=
  (W4_of_ne m ρ c main_arg11 (by decide)).trans (w3_arg11 m ρ c)

theorem w4_arg12 : W4 (F := Ideal) m ρ c (Proc.devRef .tc main_arg12) = (m ((c.tc : Thread nD τ).loc main_arg12)) :=
  (W4_of_ne m ρ c main_arg12 (by decide)).trans (w3_arg12 m ρ c)

theorem w4_arg13 : W4 (F := Ideal) m ρ c (Proc.devRef .tc main_arg13) = (m ((c.tc : Thread nD τ).loc main_arg13)) :=
  (W4_of_ne m ρ c main_arg13 (by decide)).trans (w3_arg13 m ρ c)

/-! ## After the third stretch: the neighbour sum of the second layer's output -/

set_option maxHeartbeats 4000000 in
/-- The third stretch's neighbour sum from ANY buffer contents whose three reads are the reference's stages. -/
theorem agg3_of (Wv : Valuation τ sig (Elt Ideal))
    (h25 : Wv (Proc.devRef .tc main_v25) = Cert.ReferenceIdeal.Read.val_main_v37 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
    (h1 : Wv (Proc.devRef .tc main_v1) = Cert.ReferenceIdeal.Read.val_main_v1 (F := Ideal) (m ((c.tc : Thread nD τ).loc main_arg1)))
    (h3 : Wv (Proc.devRef .tc main_v3) = Cert.ReferenceIdeal.Read.val_main_v3 (F := Ideal) (m ((c.tc : Thread nD τ).loc main_arg1))) :
    StableHlo.after hostOps2 Wv (Proc.devRef .tc main_v35) = Cert.ReferenceIdeal.Read.val_main_v47 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  after_results_simp
  rw [h25, h1, h3]
  rfl

theorem w5_v35 : W5 (F := Ideal) m ρ c (Proc.devRef .tc main_v35) = Cert.ReferenceIdeal.Read.val_main_v47 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  agg3_of m c (W4 m ρ c) (w4_v25 m ρ c) (w4_v1 m ρ c) (w4_v3 m ρ c)

theorem w5_v25 : W5 (F := Ideal) m ρ c (Proc.devRef .tc main_v25) = Cert.ReferenceIdeal.Read.val_main_v37 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after hostOps2 (W4 m ρ c) (Proc.devRef .tc main_v25) = _
  after_results
  exact w4_v25 m ρ c

theorem w5_arg2 : W5 (F := Ideal) m ρ c (Proc.devRef .tc main_arg2) = (m ((c.tc : Thread nD τ).loc main_arg2)) := by
  show StableHlo.after hostOps2 (W4 m ρ c) (Proc.devRef .tc main_arg2) = _
  after_results
  exact w4_arg2 m ρ c

theorem w5_arg9 : W5 (F := Ideal) m ρ c (Proc.devRef .tc main_arg9) = (m ((c.tc : Thread nD τ).loc main_arg9)) := by
  show StableHlo.after hostOps2 (W4 m ρ c) (Proc.devRef .tc main_arg9) = _
  after_results
  exact w4_arg9 m ρ c

theorem w5_arg10 : W5 (F := Ideal) m ρ c (Proc.devRef .tc main_arg10) = (m ((c.tc : Thread nD τ).loc main_arg10)) := by
  show StableHlo.after hostOps2 (W4 m ρ c) (Proc.devRef .tc main_arg10) = _
  after_results
  exact w4_arg10 m ρ c

theorem w5_arg11 : W5 (F := Ideal) m ρ c (Proc.devRef .tc main_arg11) = (m ((c.tc : Thread nD τ).loc main_arg11)) := by
  show StableHlo.after hostOps2 (W4 m ρ c) (Proc.devRef .tc main_arg11) = _
  after_results
  exact w4_arg11 m ρ c

theorem w5_arg12 : W5 (F := Ideal) m ρ c (Proc.devRef .tc main_arg12) = (m ((c.tc : Thread nD τ).loc main_arg12)) := by
  show StableHlo.after hostOps2 (W4 m ρ c) (Proc.devRef .tc main_arg12) = _
  after_results
  exact w4_arg12 m ρ c

theorem w5_arg13 : W5 (F := Ideal) m ρ c (Proc.devRef .tc main_arg13) = (m ((c.tc : Thread nD τ).loc main_arg13)) := by
  show StableHlo.after hostOps2 (W4 m ρ c) (Proc.devRef .tc main_arg13) = _
  after_results
  exact w4_arg13 m ρ c

/-! ## After the third region: the third layer -/

theorem w6_v36 : W6 (F := Ideal) m ρ c (Proc.devRef .tc main_v36) = Cert.ReferenceIdeal.Read.val_main_v53 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W6_arr m ρ c 5).trans ((Cert.KernelIdeal.Layer2.final (V5 m ρ) c).trans ?_)
  show Cert.LibGraphConv.layer (W5 (F := Ideal) m ρ c (Proc.devRef .tc main_v25)) (W5 (F := Ideal) m ρ c (Proc.devRef .tc main_v35)) (W5 (F := Ideal) m ρ c (Proc.devRef .tc main_arg9)) (W5 (F := Ideal) m ρ c (Proc.devRef .tc main_arg10)) (W5 (F := Ideal) m ρ c (Proc.devRef .tc main_arg11)) = _
  rw [w5_v25, w5_v35, w5_arg9, w5_arg10, w5_arg11]
  exact (Cert.ReferenceIdeal.Layers.layer3_eq _ _ _ _ _ _ _ _ _ _ _).symm

theorem w6_arg2 : W6 (F := Ideal) m ρ c (Proc.devRef .tc main_arg2) = (m ((c.tc : Thread nD τ).loc main_arg2)) :=
  (W6_of_ne m ρ c main_arg2 (by decide)).trans (w5_arg2 m ρ c)

theorem w6_arg12 : W6 (F := Ideal) m ρ c (Proc.devRef .tc main_arg12) = (m ((c.tc : Thread nD τ).loc main_arg12)) :=
  (W6_of_ne m ρ c main_arg12 (by decide)).trans (w5_arg12 m ρ c)

theorem w6_arg13 : W6 (F := Ideal) m ρ c (Proc.devRef .tc main_arg13) = (m ((c.tc : Thread nD τ).loc main_arg13)) :=
  (W6_of_ne m ρ c main_arg13 (by decide)).trans (w5_arg13 m ρ c)

/-! ## After the last stretch: the mean pool over the graphs and the linear head -/

set_option maxHeartbeats 4000000 in
/-- The last stretch — the mean pool and the linear head — from ANY buffer contents whose four reads are the
    reference's third layer and the arguments. -/
theorem tail_of (Wv : Valuation τ sig (Elt Ideal))
    (h36 : Wv (Proc.devRef .tc main_v36) = Cert.ReferenceIdeal.Read.val_main_v53 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))
    (h2 : Wv (Proc.devRef .tc main_arg2) = (m ((c.tc : Thread nD τ).loc main_arg2)))
    (h12 : Wv (Proc.devRef .tc main_arg12) = (m ((c.tc : Thread nD τ).loc main_arg12)))
    (h13 : Wv (Proc.devRef .tc main_arg13) = (m ((c.tc : Thread nD τ).loc main_arg13))) :
    StableHlo.after hostOps3 Wv (Proc.devRef .tc main_v52) = Cert.ReferenceIdeal.Read.val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  after_results_simp
  rw [h36, h2, h12, h13]
  rfl

/-- THE RESULT: the kernel's result buffer holds the reference's last stage of the arguments. -/
theorem result_eq : W7 (F := Ideal) m ρ c (Proc.devRef .tc main_v52) = Cert.ReferenceIdeal.Read.val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  tail_of m c (W6 m ρ c) (w6_v36 m ρ c) (w6_arg2 m ρ c) (w6_arg12 m ρ c) (w6_arg13 m ρ c)

end Cert.KernelIdeal.Chain

end
-- ==== Proof.lean ====
/-
  A three-layer graph convolution with a mean pool and a linear head: the Pallas kernel against its jnp reference,
  equal on the extended reals.

  The network. For node features x : [50000, 128], edges (src, dst) : [2, 800000], a graph assignment batch : [50000]
  and weights W·_root, W·_rel, b· of three layers (128 → 256 → 256 → 256) and of the head W_lin : [256, 10], b_lin,

      agg(h)  = segment_sum (h[src], dst)                      (gather the source rows, scatter-add into the destinations)
      h₁ = relu (x · W1_root + agg(x) · W1_rel + b1)
      h₂ = relu (h₁ · W2_root + agg(h₁) · W2_rel + b2)
      h₃ =       h₂ · W3_root + agg(h₂) · W3_rel + b3
      out = (segment_sum (h₃, batch) / max (segment_sum (1, batch), 1)) · W_lin + b_lin     : [128, 10]

  The two programs. The reference computes all of it on the host. The kernel computes each layer's dense part
  (two matrix products, the bias, the relu) in a pallas_call over ten tiles of 5000 rows, after rounding the operands of
  the products to bf16, and leaves the neighbour sums, the pool and the head to the same host operations the reference
  uses. On the extended reals a change of float format is the identity, a matrix product into a zero accumulator
  and a host dot_general are the same sum over the contracted axis, and the tiles' row blocks tile the 50000 rows; the
  kernel adds the two products first and the bias second, exactly as the reference does. So each layer is ONE
  function of the arrays it reads (LibGraphConv.lean, Layer0–2.lean, RefLayers.lean), the host stretches between the
  layers are the reference's own operations applied to equal arrays (KernelValue.lean), and the two results are the
  same term of the arguments: no algebraic law beyond reading each operation at an index is used, and the
  precondition (finite inputs) is never opened — the equality holds at infinite inputs as well.

  The frames. The kernel's two frame claims are the frame certificates of its three regions among four stretches
  of host operations (FrameK.lean, FrameKI.lean); the reference's is its run with the result dropped. The ideal
  pass rewrote no operation, so `preserves` is `True`.
-/
import proofs.«158405_j1932735283948_1_alg».proof.Defs
import proofs.«158405_j1932735283948_1_alg».proof.Proof.Gen.Kernel
import proofs.«158405_j1932735283948_1_alg».proof.Proof.Gen.KernelIdeal
import proofs.«158405_j1932735283948_1_alg».proof.Proof.Gen.ReferenceIdeal
import proofs.«158405_j1932735283948_1_alg».proof.Proof.Gen.Pre_finite_inputs
import proofs.«158405_j1932735283948_1_alg».proof.Proof.Gen.ReferenceIdeal.Run
import proofs.«158405_j1932735283948_1_alg».proof.Proof.Gen.ReferenceIdeal.Read
import proofs.«158405_j1932735283948_1_alg».proof.Proof.FrameK
import proofs.«158405_j1932735283948_1_alg».proof.Proof.FrameKI
import proofs.«158405_j1932735283948_1_alg».proof.Proof.KernelRun
import proofs.«158405_j1932735283948_1_alg».proof.Proof.KernelValue
import Idealize.ShloMosaic.Adequacy
import Idealize.ShloMosaic.Init

noncomputable section

namespace Cert.Proof

open Idealize.ShloMosaic Idealize.SL.Sem

/-- The printed kernel runs and leaves its arguments unchanged. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the reference's result stage of the (agreeing) arguments. -/
theorem algebraic : Cert.algebraic_KernelIdeal_ReferenceIdeal := by
  intro m ρ m' ρ' _ hagree
  refine ⟨fun c => Cert.ReferenceIdeal.Read.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Chain.result_eq m ρ c), (h c).2⟩)
      (Cert.KernelIdeal.RunAll.run_result m ρ)
  · refine (θ_run Cert.ReferenceIdeal.defs _ _).mono (fun _ h c => ⟨(h c).1.trans ((Cert.ReferenceIdeal.Read.val_main_v69_eq m' c).trans ?_), (h c).2⟩)
      (Cert.ReferenceIdeal.Value.run (F := Ideal) m' ρ')
    obtain ⟨e0, e1, e2, e3, e4, e5, e6, e7, e8, e9, e10, e11, e12, e13⟩ := hagree c
    rw [e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
